-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v57)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32768x3 : Shape := ⟨3, ![8, 32768, 3]⟩
abbrev S8x32768x32 : Shape := ⟨3, ![8, 32768, 32]⟩
abbrev S8x32768x16 : Shape := ⟨3, ![8, 32768, 16]⟩
abbrev S_ : Shape := ⟨0, ![]⟩

class Facts : Prop where
  bcast_S_S8x32768x3 : S_.BroadcastsInDim S8x32768x3 (![] : Fin 0 → Fin S8x32768x3.rank)
  reducesTo_S8x32768x3_S_d0_1_2 : S8x32768x3.ReducesTo [0, 1, 2] S_
  h_S_ : 0 < S_.numel
  bcast_S_S8x32768x32 : S_.BroadcastsInDim S8x32768x32 (![] : Fin 0 → Fin S8x32768x32.rank)
  reducesTo_S8x32768x32_S_d0_1_2 : S8x32768x32.ReducesTo [0, 1, 2] S_

variable [Facts]

def fn {F : FTy → Type} [FloatOps F] (main_arg0 : FVec F S8x32768x3 .f32) (main_arg1 : FVec F S8x32768x32 .f32) (main_arg2 : IVec S8x32768x16 32) : IVec S_ 1 :=
  let main_v0 : FVec F S8x32768x3 .f32 := Host.absf main_arg0
  let main_cst : FVec F S_ .f32 := constant S_ .f32 0x7F800000#32
  let main_v1 : FVec F S8x32768x3 .f32 := broadcastInDim S8x32768x3 ![] bcast_S_S8x32768x3 main_cst
  let main_v2 : IVec S8x32768x3 1 := cmpf .olt main_v0 main_v1
  let main_c : IVec S_ 1 := constantI S_ 1 1#1
  let main_v3 : IVec S_ 1 := (fun x v => Host.reduce IntOp.andi x v reducesTo_S8x32768x3_S_d0_1_2 h_S_) main_v2 main_c
  let main_v4 : FVec F S8x32768x32 .f32 := Host.absf main_arg1
  let main_cst_0 : FVec F S_ .f32 := constant S_ .f32 0x7F800000#32
  let main_v5 : FVec F S8x32768x32 .f32 := broadcastInDim S8x32768x32 ![] bcast_S_S8x32768x32 main_cst_0
  let main_v6 : IVec S8x32768x32 1 := cmpf .olt main_v4 main_v5
  let main_c_1 : IVec S_ 1 := constantI S_ 1 1#1
  let main_v7 : IVec S_ 1 := (fun x v => Host.reduce IntOp.andi x v reducesTo_S8x32768x32_S_d0_1_2 h_S_) main_v6 main_c_1
  let main_v8 : IVec S_ 1 := andi main_v3 main_v7
  main_v8
-- ==== Kernel.lean ====
abbrev S8x32768x3 : Shape := ⟨3, ![8, 32768, 3]⟩
abbrev S8x32768x32 : Shape := ⟨3, ![8, 32768, 32]⟩
abbrev S8x32768x16 : Shape := ⟨3, ![8, 32768, 16]⟩
abbrev S32768 : Shape := ⟨1, ![32768]⟩
abbrev S1x32768x1 : Shape := ⟨3, ![1, 32768, 1]⟩
abbrev S_ : Shape := ⟨0, ![]⟩
abbrev S8x32768 : Shape := ⟨2, ![8, 32768]⟩
abbrev S8x32768x1 : Shape := ⟨3, ![8, 32768, 1]⟩
abbrev S8 : Shape := ⟨1, ![8]⟩
abbrev S8x1x1 : Shape := ⟨3, ![8, 1, 1]⟩
abbrev S8x32768x16x1 : Shape := ⟨4, ![8, 32768, 16, 1]⟩
abbrev S8x32768x16x2 : Shape := ⟨4, ![8, 32768, 16, 2]⟩
abbrev S8x32768x16x3 : Shape := ⟨4, ![8, 32768, 16, 3]⟩
abbrev S8x32768x16x32 : Shape := ⟨4, ![8, 32768, 16, 32]⟩
abbrev S8x3x32768 : Shape := ⟨3, ![8, 3, 32768]⟩
abbrev S8x32x32768 : Shape := ⟨3, ![8, 32, 32768]⟩
abbrev S8x16x3x32768 : Shape := ⟨4, ![8, 16, 3, 32768]⟩
abbrev S8x16x32x32768 : Shape := ⟨4, ![8, 16, 32, 32768]⟩
abbrev S8x16x32768 : Shape := ⟨3, ![8, 16, 32768]⟩
abbrev S8x3x256 : Shape := ⟨3, ![8, 3, 256]⟩
abbrev S8x32x256 : Shape := ⟨3, ![8, 32, 256]⟩
abbrev S8x16x3x256 : Shape := ⟨4, ![8, 16, 3, 256]⟩
abbrev S8x16x32x256 : Shape := ⟨4, ![8, 16, 32, 256]⟩
abbrev S8x16x256 : Shape := ⟨3, ![8, 16, 256]⟩
abbrev S8x256 : Shape := ⟨2, ![8, 256]⟩
abbrev S8x1x3x256 : Shape := ⟨4, ![8, 1, 3, 256]⟩
abbrev S8x1x32x256 : Shape := ⟨4, ![8, 1, 32, 256]⟩

abbrev nBuf : Space → Nat
  | .hbm => 81
  | .vmem => 12
  | .smem => 0
  | _ => 0

abbrev bufTy : (tb : Table) → Fin (tcTables nBuf tb) → BufTy
  | .hbm, ⟨0, _⟩ => ⟨S8x32768x3, .f32⟩
  | .hbm, ⟨1, _⟩ => ⟨S8x32768x32, .f32⟩
  | .hbm, ⟨2, _⟩ => ⟨S8x32768x16, .i32⟩
  | .hbm, ⟨3, _⟩ => ⟨S32768, .i32⟩
  | .hbm, ⟨4, _⟩ => ⟨S1x32768x1, .i32⟩
  | .hbm, ⟨5, _⟩ => ⟨S8x32768x16, .i32⟩
  | .hbm, ⟨6, _⟩ => ⟨S8x32768x16, .i1⟩
  | .hbm, ⟨7, _⟩ => ⟨S_, .i32⟩
  | .hbm, ⟨8, _⟩ => ⟨S8x32768x16, .i32⟩
  | .hbm, ⟨9, _⟩ => ⟨S8x32768x16, .i1⟩
  | .hbm, ⟨10, _⟩ => ⟨S8x32768x16, .i32⟩
  | .hbm, ⟨11, _⟩ => ⟨S_, .i32⟩
  | .hbm, ⟨12, _⟩ => ⟨S8x32768, .i32⟩
  | .hbm, ⟨13, _⟩ => ⟨S8x32768x1, .i32⟩
  | .hbm, ⟨14, _⟩ => ⟨S_, .i32⟩
  | .hbm, ⟨15, _⟩ => ⟨S8x32768x1, .i32⟩
  | .hbm, ⟨16, _⟩ => ⟨S8x32768x1, .i1⟩
  | .hbm, ⟨17, _⟩ => ⟨S8x32768x16, .i1⟩
  | .hbm, ⟨18, _⟩ => ⟨S8x32768x16, .i1⟩
  | .hbm, ⟨19, _⟩ => ⟨S_, .i32⟩
  | .hbm, ⟨20, _⟩ => ⟨S_, .i32⟩
  | .hbm, ⟨21, _⟩ => ⟨S8x32768x16, .i32⟩
  | .hbm, ⟨22, _⟩ => ⟨S8x32768x16, .i32⟩
  | .hbm, ⟨23, _⟩ => ⟨S_, .i32⟩
  | .hbm, ⟨24, _⟩ => ⟨S8x32768x16, .i32⟩
  | .hbm, ⟨25, _⟩ => ⟨S8x32768x16, .i1⟩
  | .hbm, ⟨26, _⟩ => ⟨S_, .i32⟩
  | .hbm, ⟨27, _⟩ => ⟨S_, .i32⟩
  | .hbm, ⟨28, _⟩ => ⟨S8x32768x16, .i32⟩
  | .hbm, ⟨29, _⟩ => ⟨S8x32768x16, .i32⟩
  | .hbm, ⟨30, _⟩ => ⟨S8, .i32⟩
  | .hbm, ⟨31, _⟩ => ⟨S8x1x1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S_, .i32⟩
  | .hbm, ⟨36, _⟩ => ⟨S8x1x1, .i32⟩
  | .hbm, ⟨37, _⟩ => ⟨S8x1x1, .i32⟩
  | .hbm, ⟨38, _⟩ => ⟨S8x1x1, .i32⟩
  | .hbm, ⟨39, _⟩ => ⟨S_, .i32⟩
  | .hbm, ⟨40, _⟩ => ⟨S8x32768x16, .i32⟩
  | .hbm, ⟨41, _⟩ => ⟨S8x32768x16, .i1⟩
  | .hbm, ⟨42, _⟩ => ⟨S_, .i32⟩
  | .hbm, ⟨43, _⟩ => ⟨S8x32768x16, .i32⟩
  | .hbm, ⟨44, _⟩ => ⟨S8x32768x16, .i32⟩
  | .hbm, ⟨45, _⟩ => ⟨S8x32768x16, .i32⟩
  | .hbm, ⟨46, _⟩ => ⟨S8x32768x16, .i32⟩
  | .hbm, ⟨47, _⟩ => ⟨S8x32768x16x1, .i32⟩
  | .hbm, ⟨48, _⟩ => ⟨S8x32768x16x1, .i32⟩
  | .hbm, ⟨49, _⟩ => ⟨S8x32768x16x2, .i32⟩
  | .hbm, ⟨50, _⟩ => ⟨S8x32768x16x3, .f32⟩
  | .hbm, ⟨51, _⟩ => ⟨S_, .i32⟩
  | .hbm, ⟨52, _⟩ => ⟨S8x1x1, .i32⟩
  | .hbm, ⟨53, _⟩ => ⟨S8x1x1, .i1⟩
  | .hbm, ⟨54, _⟩ => ⟨S_, .i32⟩
  | .hbm, ⟨55, _⟩ => ⟨S8x1x1, .i32⟩
  | .hbm, ⟨56, _⟩ => ⟨S8x1x1, .i32⟩
  | .hbm, ⟨57, _⟩ => ⟨S8x1x1, .i32⟩
  | .hbm, ⟨58, _⟩ => ⟨S_, .i32⟩
  | .hbm, ⟨59, _⟩ => ⟨S8x32768x16, .i32⟩
  | .hbm, ⟨60, _⟩ => ⟨S8x32768x16, .i1⟩
  | .hbm, ⟨61, _⟩ => ⟨S_, .i32⟩
  | .hbm, ⟨62, _⟩ => ⟨S8x32768x16, .i32⟩
  | .hbm, ⟨63, _⟩ => ⟨S8x32768x16, .i32⟩
  | .hbm, ⟨64, _⟩ => ⟨S8x32768x16, .i32⟩
  | .hbm, ⟨65, _⟩ => ⟨S8x32768x16, .i32⟩
  | .hbm, ⟨66, _⟩ => ⟨S8x32768x16x1, .i32⟩
  | .hbm, ⟨67, _⟩ => ⟨S8x32768x16x1, .i32⟩
  | .hbm, ⟨68, _⟩ => ⟨S8x32768x16x2, .i32⟩
  | .hbm, ⟨69, _⟩ => ⟨S8x32768x16x32, .f32⟩
  | .hbm, ⟨70, _⟩ => ⟨S8x3x32768, .f32⟩
  | .hbm, ⟨71, _⟩ => ⟨S8x32x32768, .f32⟩
  | .hbm, ⟨72, _⟩ => ⟨S8x16x3x32768, .f32⟩
  | .hbm, ⟨73, _⟩ => ⟨S8x16x32x32768, .f32⟩
  | .hbm, ⟨74, _⟩ => ⟨S8x16x32768, .i1⟩
  | .hbm, ⟨75, _⟩ => ⟨S8x16x32768, .f32⟩
  | .hbm, ⟨76, _⟩ => ⟨S8x32768, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S8x3x256, .f32⟩
  | .local _ .vmem, ⟨1, _⟩ => ⟨S8x3x256, .f32⟩
  | .local _ .vmem, ⟨2, _⟩ => ⟨S8x32x256, .f32⟩
  | .local _ .vmem, ⟨3, _⟩ => ⟨S8x32x256, .f32⟩
  | .local _ .vmem, ⟨4, _⟩ => ⟨S8x16x3x256, .f32⟩
  | .local _ .vmem, ⟨5, _⟩ => ⟨S8x16x3x256, .f32⟩
  | .local _ .vmem, ⟨6, _⟩ => ⟨S8x16x32x256, .f32⟩
  | .local _ .vmem, ⟨7, _⟩ => ⟨S8x16x32x256, .f32⟩
  | .local _ .vmem, ⟨8, _⟩ => ⟨S8x16x256, .f32⟩
  | .local _ .vmem, ⟨9, _⟩ => ⟨S8x16x256, .f32⟩
  | .local _ .vmem, ⟨10, _⟩ => ⟨S8x256, .f32⟩
  | .local _ .vmem, ⟨11, _⟩ => ⟨S8x256, .f32⟩
  | _, _ => ⟨S8x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_11 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst : Ref sig .tc := ⟨.hbm, 77, rfl⟩
abbrev main_v56 : Ref sig .tc := ⟨.hbm, 78, rfl⟩
abbrev main_cst_13 : Ref sig .tc := ⟨.hbm, 79, rfl⟩
abbrev main_v57 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x32x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x16x3x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x16x32x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x16x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S32768_S1x32768x1_1 : S32768.BroadcastsInDim S1x32768x1 (![1] : Fin 1 → Fin S1x32768x1.rank)
  bcast_S1x32768x1_S8x32768x16_0_1_2 : S1x32768x1.BroadcastsInDim S8x32768x16 (![0, 1, 2] : Fin 3 → Fin S8x32768x16.rank)
  bcast_S_S8x32768x16 : S_.BroadcastsInDim S8x32768x16 (![] : Fin 0 → Fin S8x32768x16.rank)
  natLt_1_32 : 1 < 32
  reducesTo_S8x32768x16_S8x32768_d2 : S8x32768x16.ReducesTo [2] S8x32768
  h_S_ : 0 < S_.numel
  bcast_S8x32768_S8x32768x1_0_1 : S8x32768.BroadcastsInDim S8x32768x1 (![0, 1] : Fin 2 → Fin S8x32768x1.rank)
  bcast_S_S8x32768x1 : S_.BroadcastsInDim S8x32768x1 (![] : Fin 0 → Fin S8x32768x1.rank)
  bcast_S8x32768x1_S8x32768x16_0_1_2 : S8x32768x1.BroadcastsInDim S8x32768x16 (![0, 1, 2] : Fin 3 → Fin S8x32768x16.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x32768x16_0_1_2 : S8x1x1.BroadcastsInDim S8x32768x16 (![0, 1, 2] : Fin 3 → Fin S8x32768x16.rank)
  bcast_S8x32768x16_S8x32768x16x1_0_1_2 : S8x32768x16.BroadcastsInDim S8x32768x16x1 (![0, 1, 2] : Fin 3 → Fin S8x32768x16x1.rank)
  concatenates_S8x32768x16x1_S8x32768x16x1_S8x32768x16x2_d3 : Shape.Concatenates [S8x32768x16x1, S8x32768x16x1] S8x32768x16x2 3
  transposes_S8x32768x3_S8x3x32768_0_2_1 : S8x32768x3.Transposes [0, 2, 1] S8x3x32768
  transposes_S8x32768x32_S8x32x32768_0_2_1 : S8x32768x32.Transposes [0, 2, 1] S8x32x32768
  transposes_S8x32768x16x3_S8x16x3x32768_0_2_3_1 : S8x32768x16x3.Transposes [0, 2, 3, 1] S8x16x3x32768
  transposes_S8x32768x16x32_S8x16x32x32768_0_2_3_1 : S8x32768x16x32.Transposes [0, 2, 3, 1] S8x16x32x32768
  transposes_S8x32768x16_S8x16x32768_0_2_1 : S8x32768x16.Transposes [0, 2, 1] S8x16x32768
  inb_S8x3x256_S8x3x256_0_0_0 : ∀ a, (![0, 0, 0] : Fin 3 → Nat) a + S8x3x256.size a ≤ S8x3x256.size a
  h_S8x3x256 : 0 < S8x3x256.numel
  shapeCasts_S8x3x256_S8x3x256 : S8x3x256.ShapeCasts S8x3x256
  inb_S8x32x256_S8x32x256_0_0_0 : ∀ a, (![0, 0, 0] : Fin 3 → Nat) a + S8x32x256.size a ≤ S8x32x256.size a
  h_S8x32x256 : 0 < S8x32x256.numel
  shapeCasts_S8x32x256_S8x32x256 : S8x32x256.ShapeCasts S8x32x256
  inb_S8x16x3x256_S8x16x3x256_0_0_0_0 : ∀ a, (![0, 0, 0, 0] : Fin 4 → Nat) a + S8x16x3x256.size a ≤ S8x16x3x256.size a
  h_S8x16x3x256 : 0 < S8x16x3x256.numel
  shapeCasts_S8x16x3x256_S8x16x3x256 : S8x16x3x256.ShapeCasts S8x16x3x256
  inb_S8x16x32x256_S8x16x32x256_0_0_0_0 : ∀ a, (![0, 0, 0, 0] : Fin 4 → Nat) a + S8x16x32x256.size a ≤ S8x16x32x256.size a
  h_S8x16x32x256 : 0 < S8x16x32x256.numel
  shapeCasts_S8x16x32x256_S8x16x32x256 : S8x16x32x256.ShapeCasts S8x16x32x256
  inb_S8x16x256_S8x16x256_0_0_0 : ∀ a, (![0, 0, 0] : Fin 3 → Nat) a + S8x16x256.size a ≤ S8x16x256.size a
  h_S8x16x256 : 0 < S8x16x256.numel
  shapeCasts_S8x16x256_S8x16x256 : S8x16x256.ShapeCasts S8x16x256
  shapeCasts_S8x3x256_S8x1x3x256 : S8x3x256.ShapeCasts S8x1x3x256
  broadcasts_S8x1x3x256_S8x16x3x256 : S8x1x3x256.Broadcasts S8x16x3x256
  reduces_S8x16x3x256_S8x16x256 : S8x16x3x256.Reduces [2] S8x16x256
  shapeCasts_S8x32x256_S8x1x32x256 : S8x32x256.ShapeCasts S8x1x32x256
  broadcasts_S8x1x32x256_S8x16x32x256 : S8x1x32x256.Broadcasts S8x16x32x256
  reduces_S8x16x32x256_S8x16x256 : S8x16x32x256.Reduces [2] S8x16x256
  reduces_S8x16x256_S8x256 : S8x16x256.Reduces [1] S8x256
  inb_S8x256_S8x256_0_0 : ∀ a, (![0, 0] : Fin 2 → Nat) a + S8x256.size a ≤ S8x256.size a
  h_S8x256 : 0 < S8x256.numel
  reducesTo_S8x32768_S_d0_1 : S8x32768.ReducesTo [0, 1] S_
  gather_S8x32768x3_S8x32768x16x2_S8x32768x16x3_3_01_n_n_01_3_113_wf : GatherDims.WF S8x32768x3 S8x32768x16x2 S8x32768x16x3 [3] [0, 1] [] [0, 1] [] 3 ![1, 1, 3]
  gather_S8x32768x32_S8x32768x16x2_S8x32768x16x32_3_01_n_n_01_3_1132_wf : GatherDims.WF S8x32768x32 S8x32768x16x2 S8x32768x16x32 [3] [0, 1] [] [0, 1] [] 3 ![1, 1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x3x256.size a ≤ S8x3x32768.size a
  hwx0_0 : ∀ i : grid0.Coords, EltTy.bits .f32 = 32 ∨ (Rect.block (s := S8x3x32768) S8x3x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x32x256.size a ≤ S8x32x32768.size a
  hwx0_1 : ∀ i : grid0.Coords, EltTy.bits .f32 = 32 ∨ (Rect.block (s := S8x32x32768) S8x32x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x16x3x256.size a ≤ S8x16x3x32768.size a
  hwx0_2 : ∀ i : grid0.Coords, EltTy.bits .f32 = 32 ∨ (Rect.block (s := S8x16x3x32768) S8x16x3x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x16x32x256.size a ≤ S8x16x32x32768.size a
  hwx0_3 : ∀ i : grid0.Coords, EltTy.bits .f32 = 32 ∨ (Rect.block (s := S8x16x32x32768) S8x16x32x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x16x256.size a ≤ S8x16x32768.size a
  hwx0_4 : ∀ i : grid0.Coords, EltTy.bits .f32 = 32 ∨ (Rect.block (s := S8x16x32768) S8x16x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x256.size a ≤ S8x32768.size a
  hwx0_5 : ∀ i : grid0.Coords, EltTy.bits .f32 = 32 ∨ (Rect.block (s := S8x32768) S8x256.size (cc0_transform_5 i) (hinb0_5 i)).WholeWords (EltTy.packing .f32)

variable [Facts₀]

def gather_S8x32768x3_S8x32768x16x2_S8x32768x16x3_3_01_n_n_01_3_113 : GatherDims S8x32768x3 S8x32768x16x2 S8x32768x16x3 where
  offsetDims := [3]
  collapsedSliceDims := [0, 1]
  operandBatchingDims := []
  startIndicesBatchingDims := []
  startIndexMap := [0, 1]
  indexVectorDim := 3
  sliceSizes := ![1, 1, 3]
  wf := gather_S8x32768x3_S8x32768x16x2_S8x32768x16x3_3_01_n_n_01_3_113_wf
def gather_S8x32768x32_S8x32768x16x2_S8x32768x16x32_3_01_n_n_01_3_1132 : GatherDims S8x32768x32 S8x32768x16x2 S8x32768x16x32 where
  offsetDims := [3]
  collapsedSliceDims := [0, 1]
  operandBatchingDims := []
  startIndicesBatchingDims := []
  startIndexMap := [0, 1]
  indexVectorDim := 3
  sliceSizes := ![1, 1, 32]
  wf := gather_S8x32768x32_S8x32768x16x2_S8x32768x16x32_3_01_n_n_01_3_1132_wf

abbrev win0_0 : Pipeline.Window sig grid0 :=
  Pipeline.Window.ofSpec (Memref.whole main_v49) S8x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v50) S8x32x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v51) S8x16x3x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v52) S8x16x32x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v54) S8x16x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v55) S8x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x32768x3 : Shape := ⟨3, ![8, 32768, 3]⟩
abbrev S8x32768x32 : Shape := ⟨3, ![8, 32768, 32]⟩
abbrev S8x32768x16 : Shape := ⟨3, ![8, 32768, 16]⟩
abbrev S32768 : Shape := ⟨1, ![32768]⟩
abbrev S1x32768x1 : Shape := ⟨3, ![1, 32768, 1]⟩
abbrev S_ : Shape := ⟨0, ![]⟩
abbrev S8x32768 : Shape := ⟨2, ![8, 32768]⟩
abbrev S8x32768x1 : Shape := ⟨3, ![8, 32768, 1]⟩
abbrev S8 : Shape := ⟨1, ![8]⟩
abbrev S8x1x1 : Shape := ⟨3, ![8, 1, 1]⟩
abbrev S8x32768x16x1 : Shape := ⟨4, ![8, 32768, 16, 1]⟩
abbrev S8x32768x16x2 : Shape := ⟨4, ![8, 32768, 16, 2]⟩
abbrev S8x32768x16x3 : Shape := ⟨4, ![8, 32768, 16, 3]⟩
abbrev S8x32768x16x32 : Shape := ⟨4, ![8, 32768, 16, 32]⟩
abbrev S8x32768x1x3 : Shape := ⟨4, ![8, 32768, 1, 3]⟩
abbrev S8x32768x1x32 : Shape := ⟨4, ![8, 32768, 1, 32]⟩

abbrev nBuf : Space → Nat
  | .hbm => 103
  | .vmem => 0
  | .smem => 0
  | _ => 0

abbrev bufTy : (tb : Table) → Fin (tcTables nBuf tb) → BufTy
  | .hbm, ⟨0, _⟩ => ⟨S8x32768x3, .f32⟩
  | .hbm, ⟨1, _⟩ => ⟨S8x32768x32, .f32⟩
  | .hbm, ⟨2, _⟩ => ⟨S8x32768x16, .i32⟩
  | .hbm, ⟨3, _⟩ => ⟨S32768, .i32⟩
  | .hbm, ⟨4, _⟩ => ⟨S1x32768x1, .i32⟩
  | .hbm, ⟨5, _⟩ => ⟨S8x32768x16, .i32⟩
  | .hbm, ⟨6, _⟩ => ⟨S8x32768x16, .i1⟩
  | .hbm, ⟨7, _⟩ => ⟨S_, .i32⟩
  | .hbm, ⟨8, _⟩ => ⟨S8x32768x16, .i32⟩
  | .hbm, ⟨9, _⟩ => ⟨S8x32768x16, .i1⟩
  | .hbm, ⟨10, _⟩ => ⟨S8x32768x16, .i32⟩
  | .hbm, ⟨11, _⟩ => ⟨S_, .i32⟩
  | .hbm, ⟨12, _⟩ => ⟨S8x32768, .i32⟩
  | .hbm, ⟨13, _⟩ => ⟨S8x32768x1, .i32⟩
  | .hbm, ⟨14, _⟩ => ⟨S_, .i32⟩
  | .hbm, ⟨15, _⟩ => ⟨S8x32768x1, .i32⟩
  | .hbm, ⟨16, _⟩ => ⟨S8x32768x1, .i1⟩
  | .hbm, ⟨17, _⟩ => ⟨S8x32768x16, .i1⟩
  | .hbm, ⟨18, _⟩ => ⟨S8x32768x16, .i1⟩
  | .hbm, ⟨19, _⟩ => ⟨S_, .i32⟩
  | .hbm, ⟨20, _⟩ => ⟨S_, .i32⟩
  | .hbm, ⟨21, _⟩ => ⟨S8x32768x16, .i32⟩
  | .hbm, ⟨22, _⟩ => ⟨S8x32768x16, .i32⟩
  | .hbm, ⟨23, _⟩ => ⟨S_, .i32⟩
  | .hbm, ⟨24, _⟩ => ⟨S8x32768x16, .i32⟩
  | .hbm, ⟨25, _⟩ => ⟨S8x32768x16, .i1⟩
  | .hbm, ⟨26, _⟩ => ⟨S_, .i32⟩
  | .hbm, ⟨27, _⟩ => ⟨S_, .i32⟩
  | .hbm, ⟨28, _⟩ => ⟨S8x32768x16, .i32⟩
  | .hbm, ⟨29, _⟩ => ⟨S8x32768x16, .i32⟩
  | .hbm, ⟨30, _⟩ => ⟨S8, .i32⟩
  | .hbm, ⟨31, _⟩ => ⟨S8x1x1, .i32⟩
  | .hbm, ⟨32, _⟩ => ⟨S_, .i32⟩
  | .hbm, ⟨33, _⟩ => ⟨S8x1x1, .i32⟩
  | .hbm, ⟨34, _⟩ => ⟨S8x1x1, .i1⟩
  | .hbm, ⟨35, _⟩ => ⟨S_, .i32⟩
  | .hbm, ⟨36, _⟩ => ⟨S8x1x1, .i32⟩
  | .hbm, ⟨37, _⟩ => ⟨S8x1x1, .i32⟩
  | .hbm, ⟨38, _⟩ => ⟨S8x1x1, .i32⟩
  | .hbm, ⟨39, _⟩ => ⟨S_, .i32⟩
  | .hbm, ⟨40, _⟩ => ⟨S8x32768x16, .i32⟩
  | .hbm, ⟨41, _⟩ => ⟨S8x32768x16, .i1⟩
  | .hbm, ⟨42, _⟩ => ⟨S_, .i32⟩
  | .hbm, ⟨43, _⟩ => ⟨S8x32768x16, .i32⟩
  | .hbm, ⟨44, _⟩ => ⟨S8x32768x16, .i32⟩
  | .hbm, ⟨45, _⟩ => ⟨S8x32768x16, .i32⟩
  | .hbm, ⟨46, _⟩ => ⟨S8x32768x16, .i32⟩
  | .hbm, ⟨47, _⟩ => ⟨S8x32768x16x1, .i32⟩
  | .hbm, ⟨48, _⟩ => ⟨S8x32768x16x1, .i32⟩
  | .hbm, ⟨49, _⟩ => ⟨S8x32768x16x2, .i32⟩
  | .hbm, ⟨50, _⟩ => ⟨S8x32768x16x3, .f32⟩
  | .hbm, ⟨51, _⟩ => ⟨S_, .i32⟩
  | .hbm, ⟨52, _⟩ => ⟨S8x1x1, .i32⟩
  | .hbm, ⟨53, _⟩ => ⟨S8x1x1, .i1⟩
  | .hbm, ⟨54, _⟩ => ⟨S_, .i32⟩
  | .hbm, ⟨55, _⟩ => ⟨S8x1x1, .i32⟩
  | .hbm, ⟨56, _⟩ => ⟨S8x1x1, .i32⟩
  | .hbm, ⟨57, _⟩ => ⟨S8x1x1, .i32⟩
  | .hbm, ⟨58, _⟩ => ⟨S_, .i32⟩
  | .hbm, ⟨59, _⟩ => ⟨S8x32768x16, .i32⟩
  | .hbm, ⟨60, _⟩ => ⟨S8x32768x16, .i1⟩
  | .hbm, ⟨61, _⟩ => ⟨S_, .i32⟩
  | .hbm, ⟨62, _⟩ => ⟨S8x32768x16, .i32⟩
  | .hbm, ⟨63, _⟩ => ⟨S8x32768x16, .i32⟩
  | .hbm, ⟨64, _⟩ => ⟨S8x32768x16, .i32⟩
  | .hbm, ⟨65, _⟩ => ⟨S8x32768x16, .i32⟩
  | .hbm, ⟨66, _⟩ => ⟨S8x32768x16x1, .i32⟩
  | .hbm, ⟨67, _⟩ => ⟨S8x32768x16x1, .i32⟩
  | .hbm, ⟨68, _⟩ => ⟨S8x32768x16x2, .i32⟩
  | .hbm, ⟨69, _⟩ => ⟨S8x32768x16x32, .f32⟩
  | .hbm, ⟨70, _⟩ => ⟨S8x32768x1x3, .f32⟩
  | .hbm, ⟨71, _⟩ => ⟨S8x32768x16x3, .f32⟩
  | .hbm, ⟨72, _⟩ => ⟨S8x32768x16x3, .f32⟩
  | .hbm, ⟨73, _⟩ => ⟨S8x32768x16x3, .f32⟩
  | .hbm, ⟨74, _⟩ => ⟨S_, .f32⟩
  | .hbm, ⟨75, _⟩ => ⟨S8x32768x16, .f32⟩
  | .hbm, ⟨76, _⟩ => ⟨S8x32768x16, .f32⟩
  | .hbm, ⟨77, _⟩ => ⟨S_, .f32⟩
  | .hbm, ⟨78, _⟩ => ⟨S8x32768x16, .f32⟩
  | .hbm, ⟨79, _⟩ => ⟨S8x32768x16, .f32⟩
  | .hbm, ⟨80, _⟩ => ⟨S_, .f32⟩
  | .hbm, ⟨81, _⟩ => ⟨S8x32768x16, .f32⟩
  | .hbm, ⟨82, _⟩ => ⟨S8x32768x16, .f32⟩
  | .hbm, ⟨83, _⟩ => ⟨S8x32768x1x32, .f32⟩
  | .hbm, ⟨84, _⟩ => ⟨S8x32768x16x32, .f32⟩
  | .hbm, ⟨85, _⟩ => ⟨S8x32768x16x32, .f32⟩
  | .hbm, ⟨86, _⟩ => ⟨S8x32768x16x32, .f32⟩
  | .hbm, ⟨87, _⟩ => ⟨S_, .f32⟩
  | .hbm, ⟨88, _⟩ => ⟨S8x32768x16, .f32⟩
  | .hbm, ⟨89, _⟩ => ⟨S8x32768x16, .f32⟩
  | .hbm, ⟨90, _⟩ => ⟨S_, .f32⟩
  | .hbm, ⟨91, _⟩ => ⟨S_, .f32⟩
  | .hbm, ⟨92, _⟩ => ⟨S8x32768x16, .f32⟩
  | .hbm, ⟨93, _⟩ => ⟨S8x32768x16, .f32⟩
  | .hbm, ⟨94, _⟩ => ⟨S_, .f32⟩
  | .hbm, ⟨95, _⟩ => ⟨S8x32768, .f32⟩
  | .hbm, ⟨96, _⟩ => ⟨S_, .f32⟩
  | .hbm, ⟨97, _⟩ => ⟨S8x32768, .f32⟩
  | .hbm, ⟨98, _⟩ => ⟨S8x32768, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S_, .f32⟩
  | _, _ => ⟨S8x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_c_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_c_4 : Ref sig .tc := ⟨.hbm, 26, rfl⟩
abbrev main_call1_v0 : Ref sig .tc := ⟨.hbm, 27, rfl⟩
abbrev main_call1_v1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_v19 : Ref sig .tc := ⟨.hbm, 33, rfl⟩
abbrev main_v20 : Ref sig .tc := ⟨.hbm, 34, rfl⟩
abbrev main_c_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_7 : Ref sig .tc := ⟨.hbm, 39, rfl⟩
abbrev main_v24 : Ref sig .tc := ⟨.hbm, 40, rfl⟩
abbrev main_v25 : Ref sig .tc := ⟨.hbm, 41, rfl⟩
abbrev main_c_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_9 : Ref sig .tc := ⟨.hbm, 51, rfl⟩
abbrev main_v34 : Ref sig .tc := ⟨.hbm, 52, rfl⟩
abbrev main_v35 : Ref sig .tc := ⟨.hbm, 53, rfl⟩
abbrev main_c_10 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_11 : Ref sig .tc := ⟨.hbm, 58, rfl⟩
abbrev main_v39 : Ref sig .tc := ⟨.hbm, 59, rfl⟩
abbrev main_v40 : Ref sig .tc := ⟨.hbm, 60, rfl⟩
abbrev main_c_12 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_cst_14 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_cst_17 : Ref sig .tc := ⟨.hbm, 94, rfl⟩
abbrev main_v66 : Ref sig .tc := ⟨.hbm, 95, rfl⟩
abbrev main_cst_18 : Ref sig .tc := ⟨.hbm, 96, rfl⟩
abbrev main_v67 : Ref sig .tc := ⟨.hbm, 97, rfl⟩
abbrev main_v68 : Ref sig .tc := ⟨.hbm, 98, rfl⟩
abbrev main_cst_19 : Ref sig .tc := ⟨.hbm, 99, rfl⟩
abbrev main_v69 : Ref sig .tc := ⟨.hbm, 100, rfl⟩
abbrev main_cst_20 : Ref sig .tc := ⟨.hbm, 101, rfl⟩
abbrev main_v70 : Ref sig .tc := ⟨.hbm, 102, rfl⟩

abbrev nD : Nat := 1
abbrev τ : Topo := Topo.v7x

variable {F : FTy → Type} [FloatOps F]

class Facts₀ : Prop where
  bcast_S32768_S1x32768x1_1 : S32768.BroadcastsInDim S1x32768x1 (![1] : Fin 1 → Fin S1x32768x1.rank)
  bcast_S1x32768x1_S8x32768x16_0_1_2 : S1x32768x1.BroadcastsInDim S8x32768x16 (![0, 1, 2] : Fin 3 → Fin S8x32768x16.rank)
  bcast_S_S8x32768x16 : S_.BroadcastsInDim S8x32768x16 (![] : Fin 0 → Fin S8x32768x16.rank)
  natLt_1_32 : 1 < 32
  reducesTo_S8x32768x16_S8x32768_d2 : S8x32768x16.ReducesTo [2] S8x32768
  h_S_ : 0 < S_.numel
  bcast_S8x32768_S8x32768x1_0_1 : S8x32768.BroadcastsInDim S8x32768x1 (![0, 1] : Fin 2 → Fin S8x32768x1.rank)
  bcast_S_S8x32768x1 : S_.BroadcastsInDim S8x32768x1 (![] : Fin 0 → Fin S8x32768x1.rank)
  bcast_S8x32768x1_S8x32768x16_0_1_2 : S8x32768x1.BroadcastsInDim S8x32768x16 (![0, 1, 2] : Fin 3 → Fin S8x32768x16.rank)
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x32768x16_0_1_2 : S8x1x1.BroadcastsInDim S8x32768x16 (![0, 1, 2] : Fin 3 → Fin S8x32768x16.rank)
  bcast_S8x32768x16_S8x32768x16x1_0_1_2 : S8x32768x16.BroadcastsInDim S8x32768x16x1 (![0, 1, 2] : Fin 3 → Fin S8x32768x16x1.rank)
  concatenates_S8x32768x16x1_S8x32768x16x1_S8x32768x16x2_d3 : Shape.Concatenates [S8x32768x16x1, S8x32768x16x1] S8x32768x16x2 3
  bcast_S8x32768x3_S8x32768x1x3_0_1_3 : S8x32768x3.BroadcastsInDim S8x32768x1x3 (![0, 1, 3] : Fin 3 → Fin S8x32768x1x3.rank)
  bcast_S8x32768x1x3_S8x32768x16x3_0_1_2_3 : S8x32768x1x3.BroadcastsInDim S8x32768x16x3 (![0, 1, 2, 3] : Fin 4 → Fin S8x32768x16x3.rank)
  reducesTo_S8x32768x16x3_S8x32768x16_d3 : S8x32768x16x3.ReducesTo [3] S8x32768x16
  bcast_S8x32768x32_S8x32768x1x32_0_1_3 : S8x32768x32.BroadcastsInDim S8x32768x1x32 (![0, 1, 3] : Fin 3 → Fin S8x32768x1x32.rank)
  bcast_S8x32768x1x32_S8x32768x16x32_0_1_2_3 : S8x32768x1x32.BroadcastsInDim S8x32768x16x32 (![0, 1, 2, 3] : Fin 4 → Fin S8x32768x16x32.rank)
  reducesTo_S8x32768x16x32_S8x32768x16_d3 : S8x32768x16x32.ReducesTo [3] S8x32768x16
  bcast_S_S8x32768 : S_.BroadcastsInDim S8x32768 (![] : Fin 0 → Fin S8x32768.rank)
  reducesTo_S8x32768_S_d0_1 : S8x32768.ReducesTo [0, 1] S_
  gather_S8x32768x3_S8x32768x16x2_S8x32768x16x3_3_01_n_n_01_3_113_wf : GatherDims.WF S8x32768x3 S8x32768x16x2 S8x32768x16x3 [3] [0, 1] [] [0, 1] [] 3 ![1, 1, 3]
  gather_S8x32768x32_S8x32768x16x2_S8x32768x16x32_3_01_n_n_01_3_1132_wf : GatherDims.WF S8x32768x32 S8x32768x16x2 S8x32768x16x32 [3] [0, 1] [] [0, 1] [] 3 ![1, 1, 32]

variable [Facts₀]

def gather_S8x32768x3_S8x32768x16x2_S8x32768x16x3_3_01_n_n_01_3_113 : GatherDims S8x32768x3 S8x32768x16x2 S8x32768x16x3 where
  offsetDims := [3]
  collapsedSliceDims := [0, 1]
  operandBatchingDims := []
  startIndicesBatchingDims := []
  startIndexMap := [0, 1]
  indexVectorDim := 3
  sliceSizes := ![1, 1, 3]
  wf := gather_S8x32768x3_S8x32768x16x2_S8x32768x16x3_3_01_n_n_01_3_113_wf
def gather_S8x32768x32_S8x32768x16x2_S8x32768x16x32_3_01_n_n_01_3_1132 : GatherDims S8x32768x32 S8x32768x16x2 S8x32768x16x32 where
  offsetDims := [3]
  collapsedSliceDims := [0, 1]
  operandBatchingDims := []
  startIndicesBatchingDims := []
  startIndexMap := [0, 1]
  indexVectorDim := 3
  sliceSizes := ![1, 1, 32]
  wf := gather_S8x32768x32_S8x32768x16x2_S8x32768x16x32_3_01_n_n_01_3_1132_wf

class Facts : Prop extends Facts₀ where

variable [Facts]
-- ==== Proof.KernelEntry.lean ====
/-
  What the kernel's five input windows hold when the region is entered. The host lines before the region are the
  reference's own first lines — the validity flags, the index normalisation and the two gathers — followed by a transpose
  of each array that puts the point axis last (and, for the flags, a conversion to float). So each window's array is a
  transpose of an array the reference also forms, which is named here by the reference's generated stage
  (`val_main_v33`: gathered coordinates, `val_main_v48`: gathered features, `val_main_v15`: validity flags) applied to the
  arguments: the gathers themselves are never opened, only recognised as the same operations of the same arguments.
-/
import proofs.«124872_j5188320494480_1_alg».proof.Proof.Gen.KernelIdeal.Frame
import proofs.«124872_j5188320494480_1_alg».proof.Proof.RefRead
import Idealize.ShloMosaic.Lib.StableHlo.Run

set_option maxRecDepth 16384

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The three arguments as launched on core `c`: the points' coordinates, their features, the neighbour indices. -/
abbrev coords (c : Dev nD) : FVec Ideal S8x32768x3 .f32 := m ((c : Thread nD τ).loc main_arg0)
abbrev feats (c : Dev nD) : FVec Ideal S8x32768x32 .f32 := m ((c : Thread nD τ).loc main_arg1)
abbrev nbrs (c : Dev nD) : IVec S8x32768x16 32 := m ((c : Thread nD τ).loc main_arg2)

/-- The arrays the reference forms from them before its arithmetic, by its own stages: each neighbour slot's gathered
    coordinates and features, and the slot's validity flag. -/
abbrev gatheredCoords (c : Dev nD) : FVec Ideal S8x32768x16x3 .f32 :=
  Cert.ReferenceIdeal.Read.val_main_v33 (F := Ideal) (coords m c) (nbrs m c)
abbrev gatheredFeats (c : Dev nD) : FVec Ideal S8x32768x16x32 .f32 :=
  Cert.ReferenceIdeal.Read.val_main_v48 (F := Ideal) (feats m c) (nbrs m c)
abbrev validFlags (c : Dev nD) : IVec S8x32768x16 1 :=
  Cert.ReferenceIdeal.Read.val_main_v15 (F := Ideal) (nbrs m c)

/-- Two index columns set side by side along a new last axis: the host's `concatenate` of two operands, as a function of
    the two (so that each operand is an argument, not an entry of the operation's list of pieces). -/
def joinCols (a b : IVec S8x32768x16x1 32) : IVec S8x32768x16x2 32 :=
  concatenate S8x32768x16x2 3 [⟨S8x32768x16x1, a⟩, ⟨S8x32768x16x1, b⟩] concatenates_S8x32768x16x1_S8x32768x16x1_S8x32768x16x2_d3

theorem joinCols_eq (a b : IVec S8x32768x16x1 32) :
    concatenate S8x32768x16x2 3 [⟨S8x32768x16x1, a⟩, ⟨S8x32768x16x1, b⟩] concatenates_S8x32768x16x1_S8x32768x16x1_S8x32768x16x2_d3
      = joinCols a b := rfl

/-- Window 0's array: the coordinates with the point axis last. -/
theorem entry_coords (c : Dev nD) :
    (V m c main_v49 : FVec Ideal S8x3x32768 .f32)
      = transpose S8x3x32768 [0, 2, 1] (coords m c) transposes_S8x32768x3_S8x3x32768_0_2_1 := by
  dsimp only [V, V0]
  simp only [hostOps0, hostOps0_1, hostOps0_2, hostOps0_3, hostOps0_4, List.flatten_cons, List.flatten_nil, List.append_nil,
    List.cons_append, List.nil_append]
  after_results_simp

/-- Window 1's array: the features with the point axis last. -/
theorem entry_feats (c : Dev nD) :
    (V m c main_v50 : FVec Ideal S8x32x32768 .f32)
      = transpose S8x32x32768 [0, 2, 1] (feats m c) transposes_S8x32768x32_S8x32x32768_0_2_1 := by
  dsimp only [V, V0]
  simp only [hostOps0, hostOps0_1, hostOps0_2, hostOps0_3, hostOps0_4, List.flatten_cons, List.flatten_nil, List.append_nil,
    List.cons_append, List.nil_append]
  after_results_simp

/-- Window 2's array: the gathered coordinates, indexed (batch, slot, component, point). -/
theorem entry_gatheredCoords (c : Dev nD) :
    (V m c main_v51 : FVec Ideal S8x16x3x32768 .f32)
      = transpose S8x16x3x32768 [0, 2, 3, 1] (gatheredCoords m c) transposes_S8x32768x16x3_S8x16x3x32768_0_2_3_1 := by
  dsimp only [V, V0]
  simp only [hostOps0, hostOps0_1, hostOps0_2, hostOps0_3, hostOps0_4, List.flatten_cons, List.flatten_nil, List.append_nil,
    List.cons_append, List.nil_append]
  after_results_simp
  simp only [joinCols_eq]
  after_results_simp
  unfold joinCols
  rfl

/-- Window 3's array: the gathered features, indexed (batch, slot, feature, point). -/
theorem entry_gatheredFeats (c : Dev nD) :
    (V m c main_v52 : FVec Ideal S8x16x32x32768 .f32)
      = transpose S8x16x32x32768 [0, 2, 3, 1] (gatheredFeats m c) transposes_S8x32768x16x32_S8x16x32x32768_0_2_3_1 := by
  dsimp only [V, V0]
  simp only [hostOps0, hostOps0_1, hostOps0_2, hostOps0_3, hostOps0_4, List.flatten_cons, List.flatten_nil, List.append_nil,
    List.cons_append, List.nil_append]
  after_results_simp
  simp only [joinCols_eq]
  after_results_simp
  unfold joinCols
  rfl

/-- Window 4's array: the validity flags indexed (batch, slot, point), each as the float 0 or 1. -/
theorem entry_validFlags (c : Dev nD) :
    (V m c main_v54 : FVec Ideal S8x16x32768 .f32)
      = uitofp (F := Ideal) .f32 (transpose S8x16x32768 [0, 2, 1] (validFlags m c) transposes_S8x32768x16_S8x16x32768_0_2_1) := by
  dsimp only [V, V0]
  simp only [hostOps0, hostOps0_1, hostOps0_2, hostOps0_3, hostOps0_4, List.flatten_cons, List.flatten_nil, List.append_nil,
    List.cons_append, List.nil_append]
  after_results_simp
  rfl

end Cert.KernelIdeal.Entry

end
-- ==== Proof.LibInnerAxes.lean ====
/-
  Layout operations and lane sums read at an index written by coordinates, for arrays whose inner axes are
  permuted or reduced: a rank-3 array given a unit axis in second place, that unit axis broadcast, a rank-4 array with
  its second axis moved last, and, at the ideal values, a lane sum over the third axis of a rank-4 array and over the
  second axis of a rank-3 array as a sum over that axis's coordinate. Also the test by which a 0/1 flag stored as a
  float is read back as the flag. Each is the library's general lemma (Lib/Pipeline/Value.lean
  § "Layout operations read at an index", PureOps/Ideal/Laws.lean) at one rank with both indices written `ixN …`, so that it
  applies to a printed operation by unification. Extents are variables throughout.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibInnerAxes

open Idealize.ShloMosaic Idealize.ShloMosaic.ValueIdx

variable {α : Type}

/-! ## A unit axis in second place -/

/-- An `[a, c, d]` array cast to `[a, 1, c, d]` reads, at `(i, u, k, l)`, the operand at `(i, k, l)`, whatever the unit
    coordinate `u`: the two indices have one row-major position. -/
theorem shapeCast_acd_a1cd_apply {a c d : ℕ} (x : (⟨3, ![a, c, d]⟩ : Shape).Idx → α)
    (h : (⟨3, ![a, c, d]⟩ : Shape).ShapeCasts ⟨4, ![a, 1, c, d]⟩) (i : Fin a) (u : Fin 1) (k : Fin c) (l : Fin d) :
    shapeCast ⟨4, ![a, 1, c, d]⟩ x h (ix4 i u k l) = x (ix3 i k l) :=
  shapeCast_apply x h _ _ (by
    have hu : u.val = 0 := by omega
    rw [Shape.rowMajor_val_three, Shape.rowMajor_val_four]
    show (i.val * c + k.val) * d + l.val = ((i.val * 1 + u.val) * c + k.val) * d + l.val
    rw [hu, Nat.mul_one, Nat.add_zero])

/-- An `[a, 1, c, d]` array broadcast to `[a, b, c, d]` reads, at `(i, j, k, l)`, the operand at `(i, 0, k, l)`: every
    `j` sees the one slice. -/
theorem broadcastTo_a1cd_abcd_apply {a b c d : ℕ} (x : (⟨4, ![a, 1, c, d]⟩ : Shape).Idx → α)
    (h : (⟨4, ![a, 1, c, d]⟩ : Shape).Broadcasts ⟨4, ![a, b, c, d]⟩) (i : Fin a) (j : Fin b) (k : Fin c) (l : Fin d) :
    broadcastTo ⟨4, ![a, b, c, d]⟩ x h (ix4 i j k l) = x (ix4 i (0 : Fin 1) k l) := by
  refine broadcastTo_apply x h (ix4 i j k l) (ix4 i (0 : Fin 1) k l) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl
  | ⟨3, _⟩ =>
    show l.val = if d = 1 then 0 else l.val
    split
    · have := l.isLt; omega
    · rfl

/-! ## The second axis moved last -/

/-- An `[a, b, c, d]` array transposed by the permutation `[0, 2, 3, 1]` (result `[a, c, d, b]`) reads, at `(i, k, l, j)`,
    the operand at `(i, j, k, l)`. -/
theorem transpose_ix4_0231_apply {a b c d : ℕ} (x : (⟨4, ![a, b, c, d]⟩ : Shape).Idx → α)
    (h : (⟨4, ![a, b, c, d]⟩ : Shape).Transposes [0, 2, 3, 1] ⟨4, ![a, c, d, b]⟩) (i : Fin a) (k : Fin c) (l : Fin d) (j : Fin b) :
    transpose ⟨4, ![a, c, d, b]⟩ [0, 2, 3, 1] x h (ix4 i k l j) = x (ix4 i j k l) :=
  transpose_apply _ x h _ _ fun e => match e with | ⟨0, _⟩ => rfl | ⟨1, _⟩ => rfl | ⟨2, _⟩ => rfl | ⟨3, _⟩ => rfl

/-! ## Lane sums over an inner axis, at the ideal values -/

/-- At the ideal values a lane sum over the third axis of an `[a, b, c, d]` array, read at `(i, j, l)`, is the sum over
    `k` of the operand at `(i, j, k, l)`. -/
theorem multiReduction_add_axis2_of4 {φ : FTy} {a b c d : ℕ} (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (i : Fin a) (j : Fin b) (l : Fin d) :
    multiReduction (F := Ideal) .add [2] ⟨3, ![a, b, d]⟩ src acc h hφ hacc (ix3 i j l) = ∑ k : Fin c, src (ix4 i j k l) := by
  refine (Ideal.multiReduction_add_single src acc h hφ hacc (ix3 i j l)).trans ?_
  refine Finset.sum_congr rfl fun k _ => congrArg src ?_
  funext e; apply Fin.ext
  match e with | ⟨0, _⟩ => rfl | ⟨1, _⟩ => rfl | ⟨2, _⟩ => rfl | ⟨3, _⟩ => rfl

/-- At the ideal values a lane sum over the second axis of an `[a, b, c]` array, read at `(i, l)`, is the sum over `j` of
    the operand at `(i, j, l)`. -/
theorem multiReduction_add_axis1_of3 {φ : FTy} {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (l : Fin c) :
    multiReduction (F := Ideal) .add [1] ⟨2, ![a, c]⟩ src acc h hφ hacc (ix2 i l) = ∑ j : Fin b, src (ix3 i j l) := by
  refine (Ideal.multiReduction_add_single src acc h hφ hacc (ix2 i l)).trans ?_
  refine Finset.sum_congr rfl fun j _ => congrArg src ?_
  funext e; apply Fin.ext
  match e with | ⟨0, _⟩ => rfl | ⟨1, _⟩ => rfl | ⟨2, _⟩ => rfl

/-! ## A flag stored as a float -/

/-- The f32 pattern of one half denotes the real `1/2`. -/
theorem ofBits_half : Ideal.ofBits .f32 0x3F000000#32 = ((1 / 2 : ℝ) : EReal) := by
  simp [Ideal.ofBits, Ideal.ieee, -EReal.coe_mul]; norm_num

/-- A one-bit flag converted to a float (`0` or `1`, exactly) is greater than one half exactly when the flag is set:
    testing the float against `0.5` gives the flag back. -/
theorem cmpf_ogt_uitofp_half (v : BitVec 1) :
    FloatOps.cmpf (F := Ideal) (φ := .f32) .ogt (FloatOps.uitofp (F := Ideal) .f32 v) (Ideal.ofBits .f32 0x3F000000#32) = v := by
  rw [ofBits_half]
  rcases (by decide : ∀ w : BitVec 1, w = 0#1 ∨ w = 1#1) v with rfl | rfl
  · show BitVec.ofBool (decide (((1 / 2 : ℝ) : EReal) < (((0#1 : BitVec 1).toNat : ℝ) : EReal))) = 0#1
    have hlt : ¬ (((1 / 2 : ℝ) : EReal) < (((0#1 : BitVec 1).toNat : ℝ) : EReal)) := by
      rw [EReal.coe_lt_coe_iff]; norm_num
    rw [decide_eq_false hlt]; rfl
  · show BitVec.ofBool (decide (((1 / 2 : ℝ) : EReal) < (((1#1 : BitVec 1).toNat : ℝ) : EReal))) = 1#1
    have hlt : ((1 / 2 : ℝ) : EReal) < (((1#1 : BitVec 1).toNat : ℝ) : EReal) := by
      rw [EReal.coe_lt_coe_iff]; norm_num
    rw [decide_eq_true hlt]; rfl

end Cert.LibInnerAxes

end
-- ==== Proof.Spec.lean ====
/-
  The quantity both programs compute, as one function of arrays read at coordinates.

  For a point `n` of batch `b` with sixteen neighbour slots `k`: the slot's weight is the inverse of (the Euclidean
  distance between the neighbour's three coordinates and the point's, plus a small constant), its feature distance the sum
  over the thirty-two features of the absolute difference between the neighbour's feature and the point's; a slot
  contributes weight times feature distance when its flag is set and nothing otherwise; the point's loss is the sum of
  the sixteen contributions (times one). Everything is on the extended reals with the exact operations, the float
  constants kept as the words both programs spell.
-/
import Idealize.ShloMosaic.Lib.ValueIdx
import Idealize.ShloMosaic.PureOps.Ideal

noncomputable section

namespace Cert.PointLoss

open Idealize.ShloMosaic Idealize.ShloMosaic.ValueIdx

/-- One neighbour slot: `1 / (√(∑_c (p c − a c)²) + ε) · ∑_e |q e − f e|`, with `p`, `q` the neighbour's coordinates and
    features and `a`, `f` the point's own. -/
def pairTerm (p a : Fin 3 → EReal) (q f : Fin 32 → EReal) : EReal :=
  Ideal.div (Ideal.ofBits .f32 0x3F800000#32)
      (Ideal.sqrt (∑ c : Fin 3, (p c - a c) * (p c - a c)) + Ideal.ofBits .f32 0x3727C5AC#32)
    * ∑ e : Fin 32, max (q e - f e) (-(q e - f e))

/-- One point: the sum over the slots of the slot's term where its flag `v k` is set and `0` where not, times the
    constant one. -/
def pointLoss (v : Fin 16 → BitVec 1) (p : Fin 16 → Fin 3 → EReal) (a : Fin 3 → EReal)
    (q : Fin 16 → Fin 32 → EReal) (f : Fin 32 → EReal) : EReal :=
  (∑ k : Fin 16, Scalar.select (v k) (pairTerm (p k) a (q k) f) 0) * Ideal.ofBits .f32 0x3F800000#32

/-- The loss of point `(b, n)` from the arrays in the layout the reference keeps them in: flags `M` and gathered
    coordinates `P` and features `Q` indexed (batch, point, slot[, component]), the points' own coordinates `A` and features
    `E` indexed (batch, point, component). -/
def lossAt (M : (⟨3, ![8, 32768, 16]⟩ : Shape).Idx → BitVec 1) (P : (⟨4, ![8, 32768, 16, 3]⟩ : Shape).Idx → EReal)
    (A : (⟨3, ![8, 32768, 3]⟩ : Shape).Idx → EReal) (Q : (⟨4, ![8, 32768, 16, 32]⟩ : Shape).Idx → EReal)
    (E : (⟨3, ![8, 32768, 32]⟩ : Shape).Idx → EReal) (b : Fin 8) (n : Fin 32768) : EReal :=
  pointLoss (fun k => M (ix3 b n k)) (fun k c => P (ix4 b n k c)) (fun c => A (ix3 b n c))
    (fun k e => Q (ix4 b n k e)) (fun e => E (ix3 b n e))

end Cert.PointLoss

end
-- ==== Proof.KernelPoint.lean ====
/-
  The kernel body's result at one element `(b, j)` of its output block, as the point's loss (Spec.lean) of the five
  loaded blocks read at coordinates: the two lane sums over an inner axis become sums over that axis's coordinate, the
  point's own coordinates and features — given a unit slot axis and broadcast over the sixteen slots — are read at the slot
  axis's one position, and everything else is elementwise.
-/
import proofs.«124872_j5188320494480_1_alg».proof.Proof.Gen.KernelIdeal.Skeleton
import proofs.«124872_j5188320494480_1_alg».proof.Proof.LibInnerAxes
import proofs.«124872_j5188320494480_1_alg».proof.Proof.Spec
import Idealize.ShloMosaic.Lib.ValueIdx
import Idealize.ShloMosaic.Lib.Pipeline.Value
import Idealize.ShloMosaic.PureOps.Ideal.Laws

noncomputable section

namespace Cert.KernelIdeal.PointValue

open Cert.KernelIdeal Cert.KernelIdeal.Gen Idealize.ShloMosaic Idealize.ShloMosaic.ValueIdx
open Cert.PointLoss Cert.LibInnerAxes

/-- The difference between slot `k`'s gathered coordinates and the point's own coordinates broadcast over the slots, at
    component `c` of element `(b, j)`: the gathered entry minus the point's entry (the point's entry is the same for every
    slot: it was given a unit slot axis and broadcast along it). -/
theorem diff3_apply (x0 : FVec Ideal S8x3x256 .f32) (x2 : FVec Ideal S8x16x3x256 .f32) (b : Fin 8) (k : Fin 16) (c : Fin 3) (j : Fin 256) :
    subf (shapeCast S8x16x3x256 x2 shapeCasts_S8x16x3x256_S8x16x3x256)
        (broadcastTo S8x16x3x256 (shapeCast S8x1x3x256 (shapeCast S8x3x256 x0 shapeCasts_S8x3x256_S8x3x256) shapeCasts_S8x3x256_S8x1x3x256)
          broadcasts_S8x1x3x256_S8x16x3x256) (ix4 b k c j)
      = x2 (ix4 b k c j) - x0 (ix3 b c j) := by
  show shapeCast S8x16x3x256 x2 shapeCasts_S8x16x3x256_S8x16x3x256 (ix4 b k c j)
      - broadcastTo S8x16x3x256 (shapeCast S8x1x3x256 (shapeCast S8x3x256 x0 shapeCasts_S8x3x256_S8x3x256) shapeCasts_S8x3x256_S8x1x3x256)
          broadcasts_S8x1x3x256_S8x16x3x256 (ix4 b k c j) = _
  rw [shapeCast_self, broadcastTo_a1cd_abcd_apply, shapeCast_acd_a1cd_apply, shapeCast_self]

/-- The same for the thirty-two features: slot `k`'s gathered feature `e` minus the point's own feature `e`. -/
theorem diff32_apply (x1 : FVec Ideal S8x32x256 .f32) (x3 : FVec Ideal S8x16x32x256 .f32) (b : Fin 8) (k : Fin 16) (e : Fin 32) (j : Fin 256) :
    subf (shapeCast S8x16x32x256 x3 shapeCasts_S8x16x32x256_S8x16x32x256)
        (broadcastTo S8x16x32x256 (shapeCast S8x1x32x256 (shapeCast S8x32x256 x1 shapeCasts_S8x32x256_S8x32x256) shapeCasts_S8x32x256_S8x1x32x256)
          broadcasts_S8x1x32x256_S8x16x32x256) (ix4 b k e j)
      = x3 (ix4 b k e j) - x1 (ix3 b e j) := by
  show shapeCast S8x16x32x256 x3 shapeCasts_S8x16x32x256_S8x16x32x256 (ix4 b k e j)
      - broadcastTo S8x16x32x256 (shapeCast S8x1x32x256 (shapeCast S8x32x256 x1 shapeCasts_S8x32x256_S8x32x256) shapeCasts_S8x32x256_S8x1x32x256)
          broadcasts_S8x1x32x256_S8x16x32x256 (ix4 b k e j) = _
  rw [shapeCast_self, broadcastTo_a1cd_abcd_apply, shapeCast_acd_a1cd_apply, shapeCast_self]

/-- The squared distance of slot `k` at element `(b, j)`: the lane sum over the three components of the squared
    difference. -/
theorem sqDist_apply (x0 : FVec Ideal S8x3x256 .f32) (x2 : FVec Ideal S8x16x3x256 .f32) (b : Fin 8) (k : Fin 16) (j : Fin 256) :
    multiReduction (F := Ideal) .add [2] S8x16x256
        (mulf
          (subf (shapeCast S8x16x3x256 x2 shapeCasts_S8x16x3x256_S8x16x3x256)
            (broadcastTo S8x16x3x256 (shapeCast S8x1x3x256 (shapeCast S8x3x256 x0 shapeCasts_S8x3x256_S8x3x256) shapeCasts_S8x3x256_S8x1x3x256)
              broadcasts_S8x1x3x256_S8x16x3x256))
          (subf (shapeCast S8x16x3x256 x2 shapeCasts_S8x16x3x256_S8x16x3x256)
            (broadcastTo S8x16x3x256 (shapeCast S8x1x3x256 (shapeCast S8x3x256 x0 shapeCasts_S8x3x256_S8x3x256) shapeCasts_S8x3x256_S8x1x3x256)
              broadcasts_S8x1x3x256_S8x16x3x256)))
        0x00000000#32 reduces_S8x16x3x256_S8x16x256 (.inl rfl) rfl (ix3 b k j)
      = ∑ c : Fin 3, (x2 (ix4 b k c j) - x0 (ix3 b c j)) * (x2 (ix4 b k c j) - x0 (ix3 b c j)) := by
  refine (multiReduction_add_axis2_of4 _ _ _ _ _ b k j).trans ?_
  refine Finset.sum_congr rfl fun c _ => ?_
  refine (mulf_apply _ _ _).trans ?_
  rw [diff3_apply]

/-- The feature distance of slot `k` at element `(b, j)`: the lane sum over the thirty-two features of the absolute
    difference. -/
theorem featDist_apply (x1 : FVec Ideal S8x32x256 .f32) (x3 : FVec Ideal S8x16x32x256 .f32) (b : Fin 8) (k : Fin 16) (j : Fin 256) :
    multiReduction (F := Ideal) .add [2] S8x16x256
        (absf
          (subf (shapeCast S8x16x32x256 x3 shapeCasts_S8x16x32x256_S8x16x32x256)
            (broadcastTo S8x16x32x256 (shapeCast S8x1x32x256 (shapeCast S8x32x256 x1 shapeCasts_S8x32x256_S8x32x256) shapeCasts_S8x32x256_S8x1x32x256)
              broadcasts_S8x1x32x256_S8x16x32x256)))
        0x00000000#32 reduces_S8x16x32x256_S8x16x256 (.inl rfl) rfl (ix3 b k j)
      = ∑ e : Fin 32, max (x3 (ix4 b k e j) - x1 (ix3 b e j)) (-(x3 (ix4 b k e j) - x1 (ix3 b e j))) := by
  refine (multiReduction_add_axis2_of4 _ _ _ _ _ b k j).trans ?_
  refine Finset.sum_congr rfl fun e _ => ?_
  show FloatOps.absf (subf _ _ (ix4 b k e j)) = _
  rw [diff32_apply]
  rfl

/-- THE BODY'S RESULT AT AN ELEMENT: the point's loss of the loaded blocks at that element's lane, the flag of slot `k`
    being "the stored float exceeds one half". -/
theorem pay_apply (x0 : FVec Ideal S8x3x256 .f32) (x1 : FVec Ideal S8x32x256 .f32) (x2 : FVec Ideal S8x16x3x256 .f32)
    (x3 : FVec Ideal S8x16x32x256 .f32) (x4 : FVec Ideal S8x16x256 .f32) (b : Fin 8) (j : Fin 256) :
    k0_pay1 (F := Ideal) x0 x1 x2 x3 x4 (ix2 b j)
      = pointLoss (fun k => FloatOps.cmpf (F := Ideal) (φ := .f32) .ogt (x4 (ix3 b k j)) (Ideal.ofBits .f32 0x3F000000#32))
          (fun k c => x2 (ix4 b k c j)) (fun c => x0 (ix3 b c j)) (fun k e => x3 (ix4 b k e j)) (fun e => x1 (ix3 b e j)) := by
  unfold k0_pay1 pointLoss pairTerm
  refine (mulf_apply _ _ _).trans ?_
  refine congrArg (· * _) ?_
  refine (multiReduction_add_axis1_of3 _ _ _ _ _ b j).trans ?_
  refine Finset.sum_congr rfl fun k _ => ?_
  refine (select_apply _ _ _ _).trans ?_
  have h4 : shapeCast S8x16x256 x4 shapeCasts_S8x16x256_S8x16x256 = x4 := shapeCast_self _ _
  have hs := sqDist_apply x0 x2 b k j
  have hf := featDist_apply x1 x3 b k j
  show Scalar.select (FloatOps.cmpf .ogt (shapeCast S8x16x256 x4 shapeCasts_S8x16x256_S8x16x256 (ix3 b k j)) (Ideal.ofBits .f32 0x3F000000#32))
      (Ideal.div (Ideal.ofBits .f32 0x3F800000#32) (Ideal.sqrt (multiReduction (F := Ideal) .add [2] S8x16x256 _ _ _ _ _ (ix3 b k j)) + Ideal.ofBits .f32 0x3727C5AC#32)
        * multiReduction (F := Ideal) .add [2] S8x16x256 _ _ _ _ _ (ix3 b k j))
      (Ideal.ofBits .f32 0x00000000#32) = _
  rw [h4, hs, hf, Ideal.ofBits_zero_f32]

end Cert.KernelIdeal.PointValue

end
-- ==== Proof.RefPoint.lean ====
/-
  The reference's per-point result, read at a point `(b, n)`, is the point's loss (Spec.lean) of the arrays the reference
  itself forms before its arithmetic: its validity flags, its two gathered arrays, and the two float arguments. Those three
  arrays stay as the generated stages name them (their gathers and index normalisation are never opened); from there on the
  reference is elementwise operations and sums over the last axis, which the generated read-at-an-index lemmas chain
  through, once the indices they compose are recognised as the coordinate tuples they are.
-/
import proofs.«124872_j5188320494480_1_alg».proof.Proof.RefRead
import proofs.«124872_j5188320494480_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.PointLoss

/-- The reference's per-point array at `(b, n)`: the sum over the sixteen slots of (flag ? weight · feature distance : 0),
    times one — each sum the host's float sum from a zero initial value, which adds nothing. -/
theorem loss_apply (x0 : (⟨S8x32768x3, .f32⟩ : BufTy).Contents (Elt Ideal)) (x1 : (⟨S8x32768x32, .f32⟩ : BufTy).Contents (Elt Ideal))
    (x2 : (⟨S8x32768x16, .i32⟩ : BufTy).Contents (Elt Ideal)) (b : Fin 8) (n : Fin 32768) :
    val_main_v68 (F := Ideal) x0 x1 x2 (ix2 b n)
      = lossAt (val_main_v15 (F := Ideal) x2) (val_main_v33 (F := Ideal) x0 x2) x0 (val_main_v48 (F := Ideal) x1 x2) x1 b n := by
  have e66 : ∀ k : Fin 16, idx_main_v66 (ix2 b n) k = ix3 b n k := fun k =>
    funext fun a => Fin.ext (by match a with | ⟨0, _⟩ => rfl | ⟨1, _⟩ => rfl | ⟨2, _⟩ => rfl)
  have e53 : ∀ (k : Fin 16) (c : Fin 3), idx_main_v53 (ix3 b n k) c = ix4 b n k c := fun k c =>
    funext fun a => Fin.ext (by match a with | ⟨0, _⟩ => rfl | ⟨1, _⟩ => rfl | ⟨2, _⟩ => rfl | ⟨3, _⟩ => rfl)
  have e63 : ∀ (k : Fin 16) (e : Fin 32), idx_main_v63 (ix3 b n k) e = ix4 b n k e := fun k e =>
    funext fun a => Fin.ext (by match a with | ⟨0, _⟩ => rfl | ⟨1, _⟩ => rfl | ⟨2, _⟩ => rfl | ⟨3, _⟩ => rfl)
  have e49 : ∀ (k : Fin 16) (c : Fin 3), idx_main_v49 (idx_main_v50 (ix4 b n k c)) = ix3 b n c := fun k c =>
    funext fun a => Fin.ext (by match a with | ⟨0, _⟩ => rfl | ⟨1, _⟩ => rfl | ⟨2, _⟩ => rfl)
  have e59 : ∀ (k : Fin 16) (e : Fin 32), idx_main_v59 (idx_main_v60 (ix4 b n k e)) = ix3 b n e := fun k e =>
    funext fun a => Fin.ext (by match a with | ⟨0, _⟩ => rfl | ⟨1, _⟩ => rfl | ⟨2, _⟩ => rfl)
  unfold lossAt pointLoss pairTerm
  simp only [val_main_v68_apply, val_main_v67_apply, val_main_cst_18_apply, val_main_v66_apply, val_main_cst_17_apply, e66,
    val_main_v65_apply, val_main_call2_v1_apply, val_main_call2_v0_apply, val_main_cst_16_apply,
    val_main_v64_apply, val_main_v58_apply, val_main_v57_apply, val_main_cst_14_apply, val_main_v56_apply, val_main_v55_apply,
    val_main_cst_13_apply, val_main_v54_apply, val_main_v53_apply, val_main_cst_apply, e53, val_main_v52_apply,
    val_main_v51_apply, val_main_v50_apply, val_main_v49_apply, e49,
    val_main_v63_apply, val_main_cst_15_apply, e63, val_main_v62_apply, val_main_v61_apply, val_main_v60_apply,
    val_main_v59_apply, e59,
    Ideal.ofBits_def, Ideal.ofBits_zero_f32, zero_add, Ideal.mulf_def, Ideal.subf_def, Ideal.addf_def, Ideal.hostDivf_def,
    Ideal.hostUnary_sqrt_def, Ideal.hostAbsf_def, Ideal.absf_def]

end Cert.ReferenceIdeal.RefValue

end
-- ==== Proof.KernelArray.lean ====
/-
  From blocks to the array. Grid point `t` stages, of every input window, the block whose last axis is the 256 points
  `256·t … 256·t + 255` (all of every other axis), and writes back the block of the output with the same points. Reading each
  staged block where the output element's lane says — the window arrays being transposes of the reference's arrays — the
  body's result at element `(b, j)` of point `t` is the loss of point `(b, 256·t + j)`, which is the reference's per-point
  array there; the 128 blocks cover the output array, so it ends holding the reference's per-point array.
-/
import proofs.«124872_j5188320494480_1_alg».proof.Proof.KernelEntry
import proofs.«124872_j5188320494480_1_alg».proof.Proof.KernelPoint
import proofs.«124872_j5188320494480_1_alg».proof.Proof.RefPoint
import Idealize.ShloMosaic.Lib.ValueLayout
import Idealize.ShloMosaic.Lib.Pipeline.Value

set_option maxRecDepth 16384

noncomputable section

namespace Cert.KernelIdeal.ArrayValue

open Cert.KernelIdeal Cert.KernelIdeal.Gen Cert.KernelIdeal.Entry Cert.KernelIdeal.PointValue
open Idealize.ShloMosaic Idealize.ShloMosaic.TcCoe Idealize.SL.Sem Idealize.ShloMosaic.ValueIdx
open Idealize.ShloMosaic.Pipeline (Dat)
open Cert.PointLoss Cert.LibInnerAxes

variable (m : (ℓ : Loc nD τ sig) → Buf (Elt Ideal) ℓ)

/-- The reference's per-point array of the arguments as launched on core `c`: what the output array is to hold. -/
abbrev perPoint (c : Dev nD) : FVec Ideal S8x32768 .f32 :=
  Cert.ReferenceIdeal.Read.val_main_v68 (F := Ideal) (coords m c) (feats m c) (nbrs m c)

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The printed index maps, decided over the 128 grid points: every window's block index is the grid point on its last
    axis and zero on the others. -/
theorem idx_facts : ∀ t : Fin cfg0.N,
    (win0_0.index t (0 : Fin 3) = 0 ∧ win0_0.index t (1 : Fin 3) = 0 ∧ win0_0.index t (2 : Fin 3) = t.val)
    ∧ (win0_1.index t (0 : Fin 3) = 0 ∧ win0_1.index t (1 : Fin 3) = 0 ∧ win0_1.index t (2 : Fin 3) = t.val)
    ∧ (win0_2.index t (0 : Fin 4) = 0 ∧ win0_2.index t (1 : Fin 4) = 0 ∧ win0_2.index t (2 : Fin 4) = 0 ∧ win0_2.index t (3 : Fin 4) = t.val)
    ∧ (win0_3.index t (0 : Fin 4) = 0 ∧ win0_3.index t (1 : Fin 4) = 0 ∧ win0_3.index t (2 : Fin 4) = 0 ∧ win0_3.index t (3 : Fin 4) = t.val)
    ∧ (win0_4.index t (0 : Fin 3) = 0 ∧ win0_4.index t (1 : Fin 3) = 0 ∧ win0_4.index t (2 : Fin 3) = t.val)
    ∧ (win0_5.index t (0 : Fin 2) = 0 ∧ win0_5.index t (1 : Fin 2) = t.val) :=
  (by decide +kernel : ∀ t : Fin grid0.N, _)

/-! ## The staged blocks, read at coordinates

In each, `n` is the point the lane `j` of grid point `t` stands for: `n = 256·t + j`. -/

/-- Window 0's block: the point's own coordinate `x`. -/
theorem read_coords (c : Dev nD) (t : Fin cfg0.N) (b : Fin 8) (x : Fin 3) (j : Fin 256) (n : Fin 32768) (hn : n.val = t.val * 256 + j.val) :
    iblk m c 0 t (ix3 b x j) = coords m c (ix3 b n x) := by
  show V m c main_v49 (((cfg0.win 0).blk t).view.emb (ix3 b x j)) = _
  have he : ((cfg0.win 0).blk t).view.emb (ix3 b x j) = ix3 b x n := by
    obtain ⟨⟨e0, e1, e2⟩, -⟩ := idx_facts t
    funext a; apply Fin.ext
    match a with
    | ⟨0, _⟩ => show win0_0.index t (0 : Fin 3) * 8 + 1 * b.val = b.val; omega
    | ⟨1, _⟩ => show win0_0.index t (1 : Fin 3) * 3 + 1 * x.val = x.val; omega
    | ⟨2, _⟩ => show win0_0.index t (2 : Fin 3) * 256 + 1 * j.val = n.val; omega
  rw [he, entry_coords]
  exact transpose_ix3_021_apply _ _ b x n

/-- Window 1's block: the point's own feature `e`. -/
theorem read_feats (c : Dev nD) (t : Fin cfg0.N) (b : Fin 8) (e : Fin 32) (j : Fin 256) (n : Fin 32768) (hn : n.val = t.val * 256 + j.val) :
    iblk m c 1 t (ix3 b e j) = feats m c (ix3 b n e) := by
  show V m c main_v50 (((cfg0.win 1).blk t).view.emb (ix3 b e j)) = _
  have he : ((cfg0.win 1).blk t).view.emb (ix3 b e j) = ix3 b e n := by
    obtain ⟨-, ⟨e0, e1, e2⟩, -⟩ := idx_facts t
    funext a; apply Fin.ext
    match a with
    | ⟨0, _⟩ => show win0_1.index t (0 : Fin 3) * 8 + 1 * b.val = b.val; omega
    | ⟨1, _⟩ => show win0_1.index t (1 : Fin 3) * 32 + 1 * e.val = e.val; omega
    | ⟨2, _⟩ => show win0_1.index t (2 : Fin 3) * 256 + 1 * j.val = n.val; omega
  rw [he, entry_feats]
  exact transpose_ix3_021_apply _ _ b e n

/-- Window 2's block: slot `k`'s gathered coordinate `x`. -/
theorem read_gatheredCoords (c : Dev nD) (t : Fin cfg0.N) (b : Fin 8) (k : Fin 16) (x : Fin 3) (j : Fin 256) (n : Fin 32768)
    (hn : n.val = t.val * 256 + j.val) :
    iblk m c 2 t (ix4 b k x j) = gatheredCoords m c (ix4 b n k x) := by
  show V m c main_v51 (((cfg0.win 2).blk t).view.emb (ix4 b k x j)) = _
  have he : ((cfg0.win 2).blk t).view.emb (ix4 b k x j) = ix4 b k x n := by
    obtain ⟨-, -, ⟨e0, e1, e2, e3⟩, -⟩ := idx_facts t
    funext a; apply Fin.ext
    match a with
    | ⟨0, _⟩ => show win0_2.index t (0 : Fin 4) * 8 + 1 * b.val = b.val; omega
    | ⟨1, _⟩ => show win0_2.index t (1 : Fin 4) * 16 + 1 * k.val = k.val; omega
    | ⟨2, _⟩ => show win0_2.index t (2 : Fin 4) * 3 + 1 * x.val = x.val; omega
    | ⟨3, _⟩ => show win0_2.index t (3 : Fin 4) * 256 + 1 * j.val = n.val; omega
  rw [he, entry_gatheredCoords]
  exact transpose_ix4_0231_apply _ _ b k x n

/-- Window 3's block: slot `k`'s gathered feature `e`. -/
theorem read_gatheredFeats (c : Dev nD) (t : Fin cfg0.N) (b : Fin 8) (k : Fin 16) (e : Fin 32) (j : Fin 256) (n : Fin 32768)
    (hn : n.val = t.val * 256 + j.val) :
    iblk m c 3 t (ix4 b k e j) = gatheredFeats m c (ix4 b n k e) := by
  show V m c main_v52 (((cfg0.win 3).blk t).view.emb (ix4 b k e j)) = _
  have he : ((cfg0.win 3).blk t).view.emb (ix4 b k e j) = ix4 b k e n := by
    obtain ⟨-, -, -, ⟨e0, e1, e2, e3⟩, -⟩ := idx_facts t
    funext a; apply Fin.ext
    match a with
    | ⟨0, _⟩ => show win0_3.index t (0 : Fin 4) * 8 + 1 * b.val = b.val; omega
    | ⟨1, _⟩ => show win0_3.index t (1 : Fin 4) * 16 + 1 * k.val = k.val; omega
    | ⟨2, _⟩ => show win0_3.index t (2 : Fin 4) * 32 + 1 * e.val = e.val; omega
    | ⟨3, _⟩ => show win0_3.index t (3 : Fin 4) * 256 + 1 * j.val = n.val; omega
  rw [he, entry_gatheredFeats]
  exact transpose_ix4_0231_apply _ _ b k e n

/-- Window 4's block: slot `k`'s validity flag, as the float 0 or 1. -/
theorem read_validFlags (c : Dev nD) (t : Fin cfg0.N) (b : Fin 8) (k : Fin 16) (j : Fin 256) (n : Fin 32768)
    (hn : n.val = t.val * 256 + j.val) :
    iblk m c 4 t (ix3 b k j) = FloatOps.uitofp (F := Ideal) .f32 (validFlags m c (ix3 b n k)) := by
  show V m c main_v54 (((cfg0.win 4).blk t).view.emb (ix3 b k j)) = _
  have he : ((cfg0.win 4).blk t).view.emb (ix3 b k j) = ix3 b k n := by
    obtain ⟨-, -, -, -, ⟨e0, e1, e2⟩, -⟩ := idx_facts t
    funext a; apply Fin.ext
    match a with
    | ⟨0, _⟩ => show win0_4.index t (0 : Fin 3) * 8 + 1 * b.val = b.val; omega
    | ⟨1, _⟩ => show win0_4.index t (1 : Fin 3) * 16 + 1 * k.val = k.val; omega
    | ⟨2, _⟩ => show win0_4.index t (2 : Fin 3) * 256 + 1 * j.val = n.val; omega
  rw [he, entry_validFlags]
  show FloatOps.uitofp (F := Ideal) .f32 (transpose S8x16x32768 [0, 2, 1] (validFlags m c) transposes_S8x32768x16_S8x16x32768_0_2_1 (ix3 b k n)) = _
  rw [transpose_ix3_021_apply]

/-! ## What a point writes back, the cover, and the array after the run -/

/-- WHAT POINT `t` WRITES BACK is block `t` of the reference's per-point array. -/
theorem flushed_eq (c : Dev nD) (t : Fin cfg0.N) :
    (dats m 0 c).flushed 5 t = ((cfg0.win 5).blk t).view.read (Elt Ideal) (perPoint m c) := by
  show (cfg0.win 5).cut (grid0.coords t) ((dats m 0 c).after 5 t) = _
  rw [after0_5]
  unfold out0_5
  rw [View.canon_unit_zero hz2]
  simp only [View.ld_unit_zero (S := S8x3x256) hz3, View.ld_unit_zero (S := S8x32x256) hz3, View.ld_unit_zero (S := S8x16x3x256) hz4,
    View.ld_unit_zero (S := S8x16x32x256) hz4, View.ld_unit_zero (S := S8x16x256) hz3]
  have hN : t.val < 128 := by have h : t.val < grid0.N := t.isLt; rw [N_0] at h; exact h
  funext y
  obtain ⟨b, j, rfl⟩ : ∃ (b : Fin 8) (j : Fin 256), y = ix2 b j := ⟨y 0, y 1, eq_ix2 y⟩
  have hj : j.val < 256 := j.isLt
  obtain ⟨n, hn⟩ : ∃ n : Fin 32768, n.val = t.val * 256 + j.val := ⟨⟨t.val * 256 + j.val, by omega⟩, rfl⟩
  have he : ((cfg0.win 5).blk t).view.emb (ix2 b j) = ix2 b n := by
    obtain ⟨-, -, -, -, -, ⟨e0, e1⟩⟩ := idx_facts t
    funext a; apply Fin.ext
    match a with
    | ⟨0, _⟩ => show win0_5.index t (0 : Fin 2) * 8 + 1 * b.val = b.val; omega
    | ⟨1, _⟩ => show win0_5.index t (1 : Fin 2) * 256 + 1 * j.val = n.val; omega
  show k0_pay1 (F := Ideal) (iblk m c 0 t) (iblk m c 1 t) (iblk m c 2 t) (iblk m c 3 t) (iblk m c 4 t) (ix2 b j)
      = perPoint m c (((cfg0.win 5).blk t).view.emb (ix2 b j))
  rw [he]
  refine (pay_apply (iblk m c 0 t) (iblk m c 1 t) (iblk m c 2 t) (iblk m c 3 t) (iblk m c 4 t) b j).trans ?_
  refine Eq.trans ?_ (Cert.ReferenceIdeal.RefValue.loss_apply (coords m c) (feats m c) (nbrs m c) b n).symm
  unfold lossAt
  have h0 : (fun k => FloatOps.cmpf (F := Ideal) (φ := .f32) .ogt (iblk m c 4 t (ix3 b k j)) (Ideal.ofBits .f32 0x3F000000#32))
      = fun k => validFlags m c (ix3 b n k) := funext fun k => by
    rw [read_validFlags m c t b k j n hn, cmpf_ogt_uitofp_half]
  have h1 : (fun (k : Fin 16) (x : Fin 3) => iblk m c 2 t (ix4 b k x j)) = fun k x => gatheredCoords m c (ix4 b n k x) :=
    funext fun k => funext fun x => read_gatheredCoords m c t b k x j n hn
  have h2 : (fun (x : Fin 3) => iblk m c 0 t (ix3 b x j)) = fun x => coords m c (ix3 b n x) :=
    funext fun x => read_coords m c t b x j n hn
  have h3 : (fun (k : Fin 16) (e : Fin 32) => iblk m c 3 t (ix4 b k e j)) = fun k e => gatheredFeats m c (ix4 b n k e) :=
    funext fun k => funext fun e => read_gatheredFeats m c t b k e j n hn
  have h4 : (fun (e : Fin 32) => iblk m c 1 t (ix3 b e j)) = fun e => feats m c (ix3 b n e) :=
    funext fun e => read_feats m c t b e j n hn
  rw [h0, h1, h2, h3, h4]

/-- An index of the output array is in point `t`'s block iff each coordinate is in the block's range on its axis. -/
theorem mem_blk (t : Fin cfg0.N) (i : S8x32768.Idx) :
    i ∈ ((cfg0.win 5).blk t).view.set ↔ ∀ a : Fin 2, win0_5.index t a * S8x256.size a ≤ (i a).val ∧ (i a).val < win0_5.index t a * S8x256.size a + S8x256.size a := by
  show i ∈ ((View.whole main_v55).slice (win0_5.rect t)).set ↔ _
  rw [View.set_slice_whole, Rect.mem_set_unit]
  exact Iff.rfl

/-- Every block index is some grid point's. -/
theorem idx_onto : ∀ q : Fin 128, ∃ t : Fin cfg0.N, win0_5.index t = ![0, q.val] :=
  (by decide +kernel : ∀ q : Fin 128, ∃ t : Fin grid0.N, win0_5.index t = ![0, q.val])

/-- Every index of the output array is in some point's block: point `n / 256` covers point `n`. -/
theorem covered (i : S8x32768.Idx) : ∃ t : Fin cfg0.N, (cfg0.win 5).flush t = true ∧ i ∈ ((cfg0.win 5).blk t).view.set := by
  have hi0 : (i 0).val < 8 := (i 0).isLt
  have hi1 : (i 1).val < 32768 := (i 1).isLt
  obtain ⟨t, ht⟩ := idx_onto ⟨(i 1).val / 256, by omega⟩
  have q0 : win0_5.index t (0 : Fin 2) = 0 := congrFun ht 0
  have q1 : win0_5.index t (1 : Fin 2) = (i 1).val / 256 := congrFun ht 1
  refine ⟨t, flush0_5 t, ?_⟩
  rw [mem_blk]
  intro a
  match a with
  | ⟨0, _⟩ => show win0_5.index t (0 : Fin 2) * 8 ≤ (i 0).val ∧ (i 0).val < win0_5.index t (0 : Fin 2) * 8 + 8; omega
  | ⟨1, _⟩ => show win0_5.index t (1 : Fin 2) * 256 ≤ (i 1).val ∧ (i 1).val < win0_5.index t (1 : Fin 2) * 256 + 256; omega

/-- THE OUTPUT ARRAY after the run is the reference's per-point array of the arguments. -/
theorem final (c : Dev nD) : (dats m 0 c).arrAt 5 cfg0.N = perPoint m c :=
  (dats m 0 c).arrAt_eq_of_cover 5 (perPoint m c) (fun t _ => flushed_eq m c t) (covered)

end Cert.KernelIdeal.ArrayValue

end
-- ==== Proof.KernelRun.lean ====
/-
  The kernel's run, read back. After the region the output array holds the reference's per-point array (KernelArray.lean);
  the host lines after the region sum it from zero and divide by 262144, which are the reference's own last lines, so the
  mean's buffer ends at the reference's mean stage of the same arguments; the arguments end as launched.
-/
import proofs.«124872_j5188320494480_1_alg».proof.Proof.KernelArray
import Idealize.ShloMosaic.Lib.StableHlo.Run

set_option maxRecDepth 16384

noncomputable section

namespace Cert.KernelIdeal.RunValue

open Cert.KernelIdeal Cert.KernelIdeal.Gen Cert.KernelIdeal.Entry Cert.KernelIdeal.ArrayValue
open Idealize.ShloMosaic Idealize.ShloMosaic.TcCoe Idealize.SL.Sem Idealize.ShloMosaic.StableHlo

variable (m : (ℓ : Loc nD τ sig) → Buf (Elt Ideal) ℓ)

/-- The mean of the arguments as launched on core `c`, by the reference's stage. -/
abbrev meanLoss (c : Dev nD) : FVec Ideal S_ .f32 :=
  Cert.ReferenceIdeal.Read.val_main_v70 (F := Ideal) (coords m c) (feats m c) (nbrs m c)

/-- The lines after the region leave the mean's buffer at the sum of the output array from zero, divided by the constant:
    with the output array at the reference's per-point array, that is the reference's mean stage. -/
theorem tail_mean (c : Dev nD) :
    Pipeline.afterTail₀ cfgs (dats m) 0 (V0 m) [hostOps1] c main_v57 = meanLoss m c := by
  unfold Pipeline.afterTail₀
  show StableHlo.after hostOps1 _ (Proc.devRef .tc main_v57) = _
  after_results
  have hw := (Pipeline.withArrays_arr spec0 launch0.win.arr_inj c (V0 m c) (fun w => (dats m 0 c).arrAt w cfg0.N) 5).trans (final m c)
  show Host.divf (F := Ideal)
      (Host.reduceAdd (F := Ideal)
        (Pipeline.withArrays spec0 c (V0 m c) (fun w => (dats m 0 c).arrAt w cfg0.N) (Proc.devRef .tc (Pipeline.arrRef spec0 5)))
        (constant (F := Ideal) S_ .f32 0x00000000#32) reducesTo_S8x32768_S_d0_1 h_S_)
      (constant (F := Ideal) S_ .f32 0x48800000#32) = _
  rw [hw]
  rfl

/-- The frame run re-posted: the mean and the per-point array at the reference's stages of the arguments, the arguments
    unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v57) = meanLoss m c
      ∧ r.2.mem ((c.tc : Thread nD τ).loc main_v55) = perPoint m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v57 (Pipeline.mem_restRefs_of main_v57 (by decide) (by decide))).trans (tail_mean m c),
       ((h c).1 5).trans (final m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c)⟩)
    (run_main m ρ)

end Cert.KernelIdeal.RunValue

end
-- ==== Proof.RefResults.lean ====
/-
  The reference's run, read back at its stages. Every buffer ends at what the hundred host operations, run in order from
  the launch contents, leave in it; what they leave in the two result buffers is the last stage of each — the mean and the
  per-point array as the generated stages compose them from the three arguments — and no operation writes an argument.
-/
import proofs.«124872_j5188320494480_1_alg».proof.Proof.RefRead
import Idealize.ShloMosaic.Lib.StableHlo.Run

set_option maxRecDepth 16384

noncomputable section

namespace Cert.ReferenceIdeal.Results

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ)

/-- Two index columns set side by side along a new last axis: the host's `concatenate` of two operands, as a function of
    the two (so that each operand is an argument, not an entry of the operation's list of pieces). -/
def joinCols (a b : IVec S8x32768x16x1 32) : IVec S8x32768x16x2 32 :=
  concatenate S8x32768x16x2 3 [⟨S8x32768x16x1, a⟩, ⟨S8x32768x16x1, b⟩] concatenates_S8x32768x16x1_S8x32768x16x1_S8x32768x16x2_d3

theorem joinCols_eq (a b : IVec S8x32768x16x1 32) :
    concatenate S8x32768x16x2 3 [⟨S8x32768x16x1, a⟩, ⟨S8x32768x16x1, b⟩] concatenates_S8x32768x16x1_S8x32768x16x1_S8x32768x16x2_d3
      = joinCols a b := rfl

set_option maxHeartbeats 4000000 in
/-- The per-point result buffer ends at the per-point stage of the arguments. -/
theorem after_perPoint (c : Dev nD) :
    after (ops (F := Ideal)) (launchContents m c) (Proc.devRef .tc main_v68)
      = val_main_v68 (F := Ideal) (m ((c.tc : Thread nD τ).loc main_arg0)) (m ((c.tc : Thread nD τ).loc main_arg1))
          (m ((c.tc : Thread nD τ).loc main_arg2)) := by
  after_results_simp
  simp only [joinCols_eq]
  after_results_simp
  unfold joinCols
  rfl

set_option maxHeartbeats 4000000 in
/-- The mean's result buffer ends at the mean's stage of the arguments. -/
theorem after_mean (c : Dev nD) :
    after (ops (F := Ideal)) (launchContents m c) (Proc.devRef .tc main_v70)
      = val_main_v70 (F := Ideal) (m ((c.tc : Thread nD τ).loc main_arg0)) (m ((c.tc : Thread nD τ).loc main_arg1))
          (m ((c.tc : Thread nD τ).loc main_arg2)) := by
  after_results_simp
  simp only [joinCols_eq]
  after_results_simp
  unfold joinCols
  rfl

theorem after_arg0 (c : Dev nD) :
    after (ops (F := Ideal)) (launchContents m c) (Proc.devRef .tc main_arg0) = m ((c.tc : Thread nD τ).loc main_arg0) := by
  after_results_simp <;> rfl
theorem after_arg1 (c : Dev nD) :
    after (ops (F := Ideal)) (launchContents m c) (Proc.devRef .tc main_arg1) = m ((c.tc : Thread nD τ).loc main_arg1) := by
  after_results_simp <;> rfl
theorem after_arg2 (c : Dev nD) :
    after (ops (F := Ideal)) (launchContents m c) (Proc.devRef .tc main_arg2) = m ((c.tc : Thread nD τ).loc main_arg2) := by
  after_results_simp <;> rfl

/-- The reference's run with each result at its stage of the arguments, the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v70)
          = val_main_v70 (F := Ideal) (m ((c.tc : Thread nD τ).loc main_arg0)) (m ((c.tc : Thread nD τ).loc main_arg1))
              (m ((c.tc : Thread nD τ).loc main_arg2))
      ∧ r.2.mem ((c.tc : Thread nD τ).loc main_v68)
          = val_main_v68 (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v70).trans (after_mean m c), (h c main_v68).trans (after_perPoint m c),
      (h c main_arg0).trans (after_arg0 m c), (h c main_arg1).trans (after_arg1 m c), (h c main_arg2).trans (after_arg2 m c)⟩)
    (run_after (F := Ideal) m ρ)

end Cert.ReferenceIdeal.Results

end
-- ==== Proof.lean ====
/-
  The kernel and its reference compute one function of their three arguments.

  For every point of every batch both form the same sixteen neighbour slots — the same validity flags, index normalisation and
  gathers of the neighbours' coordinates and features, by the same host operations — and from them the same number: the sum
  over the valid slots of the inverse of (the distance to the neighbour plus a small constant) times the L1 distance between
  the neighbour's features and the point's. The reference does this on arrays indexed (batch, point, slot, component) with
  the host's sums over the last axis; the kernel on transposes that put the point axis last, 256 points per grid step, the
  flags carried as the floats 0 and 1 and tested against one half, with lane sums over the component axis and the slot axis.
  At the ideal values a transpose only renames indices, a lane sum and a host sum from zero are the same finite sum, and a
  flag read back through "greater than one half" is the flag; so the kernel's output array is the reference's per-point
  array, element by element (no reordering of a sum and no law that needs finite values is used, so the precondition is never
  opened), and the two means are the same last two host operations of it.

  The three frames: the kernel's, at both instances, are the generated frame certificates; the reference's is its run with
  the results dropped. The idealization rewrote nothing, so `preserves` is `True`.
-/
import proofs.«124872_j5188320494480_1_alg».proof.Defs
import proofs.«124872_j5188320494480_1_alg».proof.Proof.Gen.Kernel
import proofs.«124872_j5188320494480_1_alg».proof.Proof.Gen.Kernel.Frame
import proofs.«124872_j5188320494480_1_alg».proof.Proof.Gen.KernelIdeal
import proofs.«124872_j5188320494480_1_alg».proof.Proof.Gen.KernelIdeal.Frame
import proofs.«124872_j5188320494480_1_alg».proof.Proof.Gen.ReferenceIdeal
import proofs.«124872_j5188320494480_1_alg».proof.Proof.Gen.Pre_finite_inputs
import proofs.«124872_j5188320494480_1_alg».proof.Proof.KernelRun
import proofs.«124872_j5188320494480_1_alg».proof.Proof.RefResults
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Results.run m ρ)

theorem preserves : Cert.preserves_Kernel_KernelIdeal := trivial

/-- Both programs end with the mean at the reference's mean stage and the per-point array at the reference's per-point
    stage of the (agreeing) arguments. -/
theorem algebraic : Cert.algebraic_KernelIdeal_ReferenceIdeal := by
  intro m ρ m' ρ' _ hagree
  refine ⟨fun c => Cert.KernelIdeal.RunValue.meanLoss m c, fun c => Cert.KernelIdeal.ArrayValue.perPoint m c,
    Cert.KernelIdeal.RunValue.run m ρ, ?_⟩
  refine (θ_run Cert.ReferenceIdeal.defs _ _).mono (fun _ h c => ⟨?_, ?_, (h c).2.2⟩) (Cert.ReferenceIdeal.Results.run m' ρ')
  · rw [(h c).1, (hagree c).1, (hagree c).2.1, (hagree c).2.2]
  · rw [(h c).2.1, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
